-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : FVec F S64x64 .f32) (main_arg2 : FVec F S64 .f32) (main_arg3 : IVec S800000 32) (main_arg4 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S5000x1 : Shape := ⟨2, ![5000, 1]⟩
abbrev S800000x64 : Shape := ⟨2, ![800000, 64]⟩
abbrev S1x64 : Shape := ⟨2, ![1, 64]⟩

abbrev nBuf : Space → Nat
  | .hbm => 35
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S1x64, .f32⟩
  | .hbm, ⟨34, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x64, .f32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x64, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run, keeping its result: every weakly fair execution of @main terminates, nothing faulting, with the result
  buffer holding the last boundary's contents (the fold of the host stretches and of the two regions' write-backs from the launch
  memory) and the five argument arrays as launched. The run is the program's six segments (three host stretches, region 0, a host
  stretch, region 1) launched together; the thread state after the last segment holds every unscoped buffer at the last fold, and the
  result buffer is one of them.
-/
import proofs.«137508_j1443109011527_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result kept: the result buffer ends at the last boundary's contents, the arguments as launched. -/
theorem run_last : θ_run defs (onTc (τ := τ) (main (F := F))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.ValueRun

end
-- ==== Proof.HostRead.lean ====
/-
  The host operations of the idealized kernel around its two regions, read back as functions of the buffers they start from.

  Before region 0 the program computes, from the destination indices `dst` alone, each node's in-degree (a segment sum of ones),
  clips it below at 1, raises it to the power −1/2 (`degNorm`), and views that vector as a one-column matrix (`normCol`).
  Between the regions it gathers the rows `h[src]` of region 0's result (a negative source index wrapped by the number of nodes)
  and segment-sums them by `dst` into a zero matrix (`aggOf`), and views the bias vector as a one-row matrix (`biasRow`).
  No host operation writes an argument, and the second stretch leaves the norm column and the weights alone.
  Everything is stated over a variable valuation of the buffers and for any float instance: the gather, the segment sums and the
  power are never opened.
-/
import proofs.«137508_j1443109011527_1_alg».proof.Proof.Gen.KernelIdeal.Launch
import Idealize.ShloMosaic.Lib.StableHlo.Run

noncomputable section

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]

/-- The degree normalisation: `max(1, in-degree) ^ (−1/2)` per node, the in-degree a segment sum of ones over `dst`. -/
def degNorm (dst : (⟨S800000, .i32⟩ : BufTy).Contents (Elt F)) : (⟨S50000, .f32⟩ : BufTy).Contents (Elt F) :=
  Host.powf
    (maximumf (broadcastInDim S50000 ![] bcast_S_S50000 (id (constant S_ .f32 0x3F800000#32)))
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32))))
    (broadcastInDim S50000 ![] bcast_S_S50000 (constant S_ .f32 0xBF000000#32))

/-- The same vector viewed as a one-column matrix. -/
def normCol (dst : (⟨S800000, .i32⟩ : BufTy).Contents (Elt F)) : (⟨S50000x1, .f32⟩ : BufTy).Contents (Elt F) :=
  shapeCast S50000x1 (degNorm (F := F) dst) shapeCasts_S50000_S50000x1

/-- The aggregation: row `e` of the gathered matrix is row `src e` of `h` (a negative index wrapped by 50000), and the rows are
    summed into the rows `dst e` of a zero matrix. -/
def aggOf (h : (⟨S50000x64, .f32⟩ : BufTy).Contents (Elt F)) (src dst : (⟨S800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The bias vector viewed as a one-row matrix. -/
def biasRow (b : (⟨S64, .f32⟩ : BufTy).Contents (Elt F)) : (⟨S1x64, .f32⟩ : BufTy).Contents (Elt F) :=
  shapeCast S1x64 b shapeCasts_S64_S1x64

variable (W : Valuation τ sig (Elt F))

/-- The buffers after the three host stretches that precede region 0. -/
abbrev pre : Valuation τ sig (Elt F) := after hostOps0_2 (after hostOps0_1 (after hostOps0 W))

/-! ## Before region 0 -/

theorem pre_norm : pre W (Proc.devRef .tc main_v7) = normCol (F := F) (W (Proc.devRef .tc main_arg4)) := by
  after_results; rfl

theorem pre_arg0 : pre W (Proc.devRef .tc main_arg0) = W (Proc.devRef .tc main_arg0) := by after_results
theorem pre_arg1 : pre W (Proc.devRef .tc main_arg1) = W (Proc.devRef .tc main_arg1) := by after_results
theorem pre_arg2 : pre W (Proc.devRef .tc main_arg2) = W (Proc.devRef .tc main_arg2) := by after_results
theorem pre_arg3 : pre W (Proc.devRef .tc main_arg3) = W (Proc.devRef .tc main_arg3) := by after_results
theorem pre_arg4 : pre W (Proc.devRef .tc main_arg4) = W (Proc.devRef .tc main_arg4) := by after_results

/-! ## Between the regions -/

theorem mid_agg : after hostOps1 W (Proc.devRef .tc main_v18)
    = aggOf (F := F) (W (Proc.devRef .tc main_v8)) (W (Proc.devRef .tc main_arg3)) (W (Proc.devRef .tc main_arg4)) := by
  after_results; rfl

theorem mid_bias : after hostOps1 W (Proc.devRef .tc main_v19) = biasRow (F := F) (W (Proc.devRef .tc main_arg2)) := by
  after_results; rfl

theorem mid_arg1 : after hostOps1 W (Proc.devRef .tc main_arg1) = W (Proc.devRef .tc main_arg1) := by after_results
theorem mid_norm : after hostOps1 W (Proc.devRef .tc main_v7) = W (Proc.devRef .tc main_v7) := by after_results

end Cert.KernelIdeal.HostRead

end
-- ==== Proof.Boundary.lean ====
/-
  The buffer contents at the boundaries of the idealized kernel's run, in terms of the launch memory `m`.

  Region 0 is entered with the first argument as launched and the norm column `normCol dst`. It writes only its output array, so
  after it the norm column and the arguments are as before, and its output array holds what its write-backs leave.
  Region 1 is entered with the aggregate `aggOf` of region 0's output array (gathered by `src`, summed by `dst`), the weights as
  launched, the bias as a one-row matrix and the same norm column. The result buffer ends holding what region 1's write-backs leave.
-/
import proofs.«137508_j1443109011527_1_alg».proof.Proof.Gen.KernelIdeal.Frame
import proofs.«137508_j1443109011527_1_alg».proof.Proof.HostRead

noncomputable section

namespace Cert.KernelIdeal.Boundary

open Idealize.ShloMosaic Idealize.ShloMosaic.TcCoe Idealize.SL.Sem
open Idealize.ShloMosaic.Pipeline (Dat)
open Cert.KernelIdeal Cert.KernelIdeal.Gen Cert.KernelIdeal.HostRead

variable {F : FTy → Type} [FloatOps F]
variable (m : (ℓ : Loc nD τ sig) → Buf (Elt F) ℓ) (ρ : Dev nD → PrngReg)

/-! ## Region 0's entry -/

theorem entry0_feat (c : Dev nD) : V3 m ρ c main_arg0 = m ((c : Thread nD τ).loc main_arg0) := pre_arg0 (W0 m ρ c)

theorem entry0_norm (c : Dev nD) : V3 m ρ c main_v7 = normCol (F := F) (m ((c : Thread nD τ).loc main_arg4)) := pre_norm (W0 m ρ c)

/-! ## Region 0's exit -/

theorem exit0_out (c : Dev nD) : W4 m ρ c (Proc.devRef .tc main_v8) = (dat0 (V3 m ρ) c).arrAt 2 cfg0.N := W4_arr m ρ c 2

theorem exit0_norm (c : Dev nD) : W4 m ρ c (Proc.devRef .tc main_v7) = normCol (F := F) (m ((c : Thread nD τ).loc main_arg4)) :=
  (W4_arr m ρ c 1).trans ((((dat0 (V3 m ρ) c).arrAt_in 1 rfl _).trans (A_eq0 (V3 m ρ) c 1)).trans (entry0_norm m ρ c))

theorem exit0_arg1 (c : Dev nD) : W4 m ρ c (Proc.devRef .tc main_arg1) = m ((c : Thread nD τ).loc main_arg1) :=
  (W4_of_ne m ρ c main_arg1 (by decide)).trans (pre_arg1 (W0 m ρ c))
theorem exit0_arg2 (c : Dev nD) : W4 m ρ c (Proc.devRef .tc main_arg2) = m ((c : Thread nD τ).loc main_arg2) :=
  (W4_of_ne m ρ c main_arg2 (by decide)).trans (pre_arg2 (W0 m ρ c))
theorem exit0_arg3 (c : Dev nD) : W4 m ρ c (Proc.devRef .tc main_arg3) = m ((c : Thread nD τ).loc main_arg3) :=
  (W4_of_ne m ρ c main_arg3 (by decide)).trans (pre_arg3 (W0 m ρ c))
theorem exit0_arg4 (c : Dev nD) : W4 m ρ c (Proc.devRef .tc main_arg4) = m ((c : Thread nD τ).loc main_arg4) :=
  (W4_of_ne m ρ c main_arg4 (by decide)).trans (pre_arg4 (W0 m ρ c))

/-! ## Region 1's entry -/

theorem entry1_agg (c : Dev nD) : V5 m ρ c main_v18
    = aggOf (F := F) ((dat0 (V3 m ρ) c).arrAt 2 cfg0.N) (m ((c : Thread nD τ).loc main_arg3)) (m ((c : Thread nD τ).loc main_arg4)) :=
  (mid_agg (W4 m ρ c)).trans (by rw [exit0_out m ρ c, exit0_arg3 m ρ c, exit0_arg4 m ρ c])

theorem entry1_weight (c : Dev nD) : V5 m ρ c main_arg1 = m ((c : Thread nD τ).loc main_arg1) :=
  (mid_arg1 (W4 m ρ c)).trans (exit0_arg1 m ρ c)

theorem entry1_bias (c : Dev nD) : V5 m ρ c main_v19 = biasRow (F := F) (m ((c : Thread nD τ).loc main_arg2)) :=
  (mid_bias (W4 m ρ c)).trans (by rw [exit0_arg2 m ρ c])

theorem entry1_norm (c : Dev nD) : V5 m ρ c main_v7 = normCol (F := F) (m ((c : Thread nD τ).loc main_arg4)) :=
  (mid_norm (W4 m ρ c)).trans (exit0_norm m ρ c)

/-! ## The result buffer at the end -/

theorem last_out (c : Dev nD) : W6 m ρ c (Proc.devRef .tc main_v20) = (dat1 (V5 m ρ) c).arrAt 4 cfg1.N := W6_arr m ρ c 4

end Cert.KernelIdeal.Boundary

end
-- ==== Proof.Rows.lean ====
/-
  The two whole-array maps the kernel's regions compute, over the literal shapes, at the extended reals.

  `rowScale x n`     : entry (p, q) is x(p, q) · n(p, 0)                      — every row of `x` scaled by that row's entry of the column `n`.
  `rowAffine a w b n`: entry (p, q) is (Σₖ a(p, k) · w(k, q)) · n(p, 0) + b(0, q) — the matrix product of `a` and `w`, each row scaled by the
                        column `n`, the one-row matrix `b` added to every row.
  Both are row-local: row p of the result depends on row p of `x` (of `a`) and on entry p of `n` only, which is what lets a tiling of the
  rows into blocks compute them block by block.
-/
import proofs.«137508_j1443109011527_1_alg».proof.KernelIdeal
import Idealize.ShloMosaic.PureOps.Ideal
import Idealize.ShloMosaic.Lib.ValueIdx

noncomputable section

namespace Cert.KernelIdeal.Rows

open Idealize.ShloMosaic Idealize.ShloMosaic.ValueIdx Cert.KernelIdeal

/-- Entry (p, q) is `x(p, q) · n(p, 0)`. -/
def rowScale (x : FVec Ideal S50000x64 .f32) (n : FVec Ideal S50000x1 .f32) : FVec Ideal S50000x64 .f32 :=
  fun i => x i * n (ix2 (i 0) 0)

/-- Entry (p, q) is `(Σₖ a(p, k) · w(k, q)) · n(p, 0) + b(0, q)`. -/
def rowAffine (a : FVec Ideal S50000x64 .f32) (w : FVec Ideal S64x64 .f32) (b : FVec Ideal S1x64 .f32)
    (n : FVec Ideal S50000x1 .f32) : FVec Ideal S50000x64 .f32 :=
  fun i => (∑ k : Fin 64, a (ix2 (i 0) k) * w (ix2 k (i 1))) * n (ix2 (i 0) 0) + b (ix2 0 (i 1))

theorem rowScale_apply (x : FVec Ideal S50000x64 .f32) (n : FVec Ideal S50000x1 .f32) (i : S50000x64.Idx) :
    rowScale x n i = x i * n (ix2 (i 0) 0) := rfl

theorem rowAffine_apply (a : FVec Ideal S50000x64 .f32) (w : FVec Ideal S64x64 .f32) (b : FVec Ideal S1x64 .f32)
    (n : FVec Ideal S50000x1 .f32) (i : S50000x64.Idx) :
    rowAffine a w b n i = (∑ k : Fin 64, a (ix2 (i 0) k) * w (ix2 k (i 1))) * n (ix2 (i 0) 0) + b (ix2 0 (i 1)) := rfl

end Cert.KernelIdeal.Rows

end
-- ==== Proof.Region0.lean ====
/-
  Region 0's result array, read off its ten write-backs.

  The region multiplies each row of a [50000, 64] array x by that row's entry of a [50000, 1] column n, 5000 rows at a time:
  grid point t holds rows 5000·t … 5000·t + 4999 of x and of n and stores, at row p and column q of its block,
  x-block(p, q) · n-block(p, 0). Row r of the product depends on row r of x and on entry r of n only, so the stored block is
  block t of the whole-array map `rowScale x n`; the ten blocks tile the 50000 rows (row r lies in block r / 5000), so after
  the last write-back the output array is `rowScale x n`, with x and n as the region found them.

  `scaled_apply`, `scaled_entry` : the stored value at an index of a block, and its dependence on one row only.
  `index_facts`                 : each of the three windows sits at block row t, block column 0, at every grid point t.
  `flushed_rowScale`            : what point t writes back is block t of `rowScale x n`.
  `mem_block`, `covered`        : a block's indices by coordinate ranges; every index of the output lies in some block.
  `final0`                      : the output array after the region.
-/
import proofs.«137508_j1443109011527_1_alg».proof.Proof.Gen.KernelIdeal.Frame
import proofs.«137508_j1443109011527_1_alg».proof.Proof.Rows
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem
open Idealize.ShloMosaic.Pipeline (Dat)

namespace Cert.KernelIdeal.RegionValue
open Cert.KernelIdeal Cert.KernelIdeal.Gen Cert.KernelIdeal.Rows
open Idealize.ShloMosaic.ValueIdx
variable (V : (c : Dev nD) → (b : Ref sig .tc) → Buf (Elt Ideal) ((c : Thread nD τ).loc b))

/-- The zero offsets of an access to a whole block, as a constant function. -/
theorem zeroOffsets : (![0, 0] : Fin 2 → Nat) = fun _ => 0 := funext fun a => by fin_cases a <;> rfl

/-- The stored value at row p, column q of a block: the block's entry there times the column block's entry of row p
    (the column block is spread along the 64 columns before the product is taken). -/
theorem scaled_apply (x : Vec Ideal S5000x64 .f32) (n : Vec Ideal S5000x1 .f32) (p : Fin 5000) (q : Fin 64) :
    k0_pay1 x n (ix2 p q) = x (ix2 p q) * n (ix2 p 0) := by
  unfold k0_pay1
  rw [mulf_apply, shapeCast_self]
  rw [broadcastTo_apply n broadcasts_S5000x1_S5000x64 (ix2 p q) (ix2 p 0) (fun a => by
    match a with
    | ⟨0, _⟩ => rfl
    | ⟨1, _⟩ => rfl)]

/-- Row scaling is local to a row: if the block entry x(j) is the array entry X(i), and the column block's entry of j's row
    is the column N's entry of i's row, then the stored value at j is the row-scaled array's entry at i. -/
theorem scaled_entry (X : FVec Ideal S50000x64 .f32) (N : FVec Ideal S50000x1 .f32)
    (x : Vec Ideal S5000x64 .f32) (n : Vec Ideal S5000x1 .f32) (j : S5000x64.Idx) (i : S50000x64.Idx)
    (hx : x j = X i) (hn : n (ix2 (j 0) 0) = N (ix2 (i 0) 0)) :
    k0_pay1 x n j = rowScale X N i := by
  obtain ⟨p, q, rfl⟩ : ∃ (p : Fin 5000) (q : Fin 64), j = ix2 p q := ⟨j 0, j 1, eq_ix2 j⟩
  rw [scaled_apply, rowScale_apply, ← hx, ← hn]

/-- The three index maps over the grid: at point t every window sits at block row t, block column 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back is block t of the row-scaled array: rows 5000·t … 5000·t + 4999 of the first argument,
    each times the norm column's entry of the same row. A block's coordinate in the array is, on each axis,
    block index × block size + the coordinate inside the block. -/
theorem flushed_rowScale (c : Dev nD) (t : Fin cfg0.N) :
    (dat0 (F := Ideal) V c).flushed 2 t
      = ((cfg0.win 2).blk t).view.read (Elt Ideal) (rowScale (V c main_arg0) (V c main_v7)) := by
  show (cfg0.win 2).cut (grid0.coords t) ((dat0 V c).after 2 t) = _
  rw [after0_2]
  unfold out0_2
  rw [View.canon_unit_zero zeroOffsets]
  simp only [View.ld_unit_zero (S := S5000x64) zeroOffsets, View.ld_unit_zero (S := S5000x1) zeroOffsets]
  obtain ⟨e00, e01, e10, e11, e20, e21⟩ := index_facts t
  funext j
  refine scaled_entry (V c main_arg0) (V c main_v7) (iblk0 V c 0 t) (iblk0 V c 1 t) j (((cfg0.win 2).blk t).view.emb j) ?_ ?_
  · -- the first argument's block sits where the output's does: block row t, block column 0
    show V c main_arg0 (((cfg0.win 0).blk t).view.emb j) = V c main_arg0 (((cfg0.win 2).blk t).view.emb j)
    have h : ((cfg0.win 0).blk t).view.emb j = ((cfg0.win 2).blk t).view.emb j := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 64 + 1 * (j 1).val = win0_2.index t (1 : Fin 2) * 64 + 1 * (j 1).val; omega
    rw [h]
  · -- the norm column's block holds the same 5000 rows, in its one column
    show V c main_v7 (((cfg0.win 1).blk t).view.emb (ix2 (n0 := 5000) (n1 := 1) (j 0) 0))
      = V c main_v7 (ix2 (n0 := 50000) (n1 := 1) (((cfg0.win 2).blk t).view.emb j 0) 0)
    have h : ((cfg0.win 1).blk t).view.emb (ix2 (n0 := 5000) (n1 := 1) (j 0) 0)
        = ix2 (n0 := 50000) (n1 := 1) (((cfg0.win 2).blk t).view.emb j 0) 0 := by
      funext a; apply Fin.ext
      match a with
      | ⟨0, _⟩ => show win0_1.index t (0 : Fin 2) * 5000 + 1 * (j 0).val = win0_2.index t (0 : Fin 2) * 5000 + 1 * (j 0).val; omega
      | ⟨1, _⟩ => show win0_1.index t (1 : Fin 2) * 1 + 1 * 0 = 0; omega
    rw [h]

/-- An index of the output array lies in point t's block iff, on each axis, its coordinate is in the block's range. -/
theorem mem_block (t : Fin cfg0.N) (i : S50000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v8).slice (win0_2.rect t)).set ↔ _
  rw [View.set_slice_whole, Rect.mem_set_unit]
  exact Iff.rfl

/-- The ten blocks of 5000 rows tile the 50000 rows: row r lies in the block of point r / 5000, all 64 columns are in every
    block, and every point writes back. -/
theorem covered (i : S50000x64.Idx) :
    ∃ t : Fin cfg0.N, (cfg0.win 2).flush t = true ∧ i ∈ ((cfg0.win 2).blk t).view.set := by
  have h0 : (i 0).val < 50000 := (i 0).isLt
  have h1 : (i 1).val < 64 := (i 1).isLt
  have hN : grid0.N = 10 := N_0
  let t : Fin cfg0.N := ⟨(i 0).val / 5000, by show (i 0).val / 5000 < grid0.N; omega⟩
  obtain ⟨-, -, -, -, e20, e21⟩ := index_facts t
  have ht : (t : Nat) = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0's ten write-backs its output array is, entry by entry, the first argument's entry times the norm column's
    entry of the same row, both as the region found them: every point writes its block of that array, and the blocks cover it. -/
theorem final0 (c : Dev nD) :
    (dat0 (F := Ideal) V c).arrAt 2 cfg0.N = rowScale (V c main_arg0) (V c main_v7) :=
  (dat0 (F := Ideal) V c).arrAt_eq_of_cover 2 (rowScale (V c main_arg0) (V c main_v7))
    (fun t _ => flushed_rowScale V c t) covered

end Cert.KernelIdeal.RegionValue
end
-- ==== Proof.Region1.lean ====
/-
  The second region's output array as one map of the arrays the region reads.

  The region tiles the 50000 rows into ten blocks of 5000. At block t its body reads rows 5000·t … 5000·t + 4999 of the aggregated
  features `agg` and of the norm column `n`, the whole weight matrix `W` and the whole bias row `b`, and stores at entry (p, q) of the
  block
        (Σₖ agg(p, k) · W(k, q)) · n(p, 0) + b(0, q):
  a matrix product into a zero accumulator (narrowing its operands first, which is the identity on extended reals), each row scaled
  by the column's entry of that row, the bias row added to every row.

  That value depends on row p of `agg` and on entry p of `n` only. So what block t stores is block t of the whole-array map
  `Rows.rowAffine agg W b n`; and the ten blocks are the ranges of rows [5000·t, 5000·t + 5000), which together hold every row. Hence
  after the ten blocks are written the output array is `rowAffine agg W b n` (`final1`).

  In order (the auxiliary lemmas are in `Affine`): the product at an entry (`blockProd_apply`) and the stored value at an entry
  (`pay_apply`); where each block sits in its array (`blockIndex`, `aggBlock_apply`, `normBlock_apply`, `weightBlock_eq`,
  `biasBlock_eq`); row-locality (`pay_eq_rowAffine`); what a grid point writes (`flushed_eq`); the blocks cover the array (`mem_blk`,
  `covered`); the result.
-/
import proofs.«137508_j1443109011527_1_alg».proof.Proof.Gen.KernelIdeal.Frame
import proofs.«137508_j1443109011527_1_alg».proof.Proof.Rows
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem Idealize.ShloMosaic.ValueIdx
open Idealize.ShloMosaic.Pipeline (Dat)

namespace Cert.KernelIdeal.RegionValue
open Cert.KernelIdeal Cert.KernelIdeal.Gen Cert.KernelIdeal.Rows

variable (V : (c : Dev nD) → (b : Ref sig .tc) → Buf (Elt Ideal) ((c : Thread nD τ).loc b))

namespace Affine

/-! ## The block product at an index -/

/-- The left operand's index at output index `i` and contraction index `κ`: row `i 0` … -/
theorem prodLhs_row (i : S5000x64.Idx) (κ : dot_S5000x64_S64x64_S5000x64_1_0_0_1_n_n.contr.Idx) :
    (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … column `κ`. -/
theorem prodLhs_col (i : S5000x64.Idx) (κ : dot_S5000x64_S64x64_S5000x64_1_0_0_1_n_n.contr.Idx) :
    (dot_S5000x64_S64x64_S5000x64_1_0_0_1_n_n.lhsIdx i κ 1).val = (κ ⟨0, by decide⟩).val :=
  dot_S5000x64_S64x64_S5000x64_1_0_0_1_n_n.lhsIdx_val_of_single rfl i κ

/-- The right operand's index: row `κ` … -/
theorem prodRhs_row (i : S5000x64.Idx) (κ : dot_S5000x64_S64x64_S5000x64_1_0_0_1_n_n.contr.Idx) :
    (dot_S5000x64_S64x64_S5000x64_1_0_0_1_n_n.rhsIdx i κ 0).val = (κ ⟨0, by decide⟩).val :=
  dot_S5000x64_S64x64_S5000x64_1_0_0_1_n_n.rhsIdx_val_of_single rfl i κ

/-- … column `i 1`. -/
theorem prodRhs_col (i : S5000x64.Idx) (κ : dot_S5000x64_S64x64_S5000x64_1_0_0_1_n_n.contr.Idx) :
    (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product of a [5000,64] block and a [64,64] matrix into the zero accumulator, at entry (p, q): Σₖ a(p,k)·w(k,q). -/
theorem blockProd_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun d => Fin.ext (by
      match d with
      | ⟨0, _⟩ => exact prodLhs_row _ _
      | ⟨1, _⟩ => exact (prodLhs_col _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun d => Fin.ext (by
      match d with
      | ⟨0, _⟩ => exact (prodRhs_row _ _).trans hk
      | ⟨1, _⟩ => exact prodRhs_col _ _)
  rw [el, er]

/-- The body's stored value at entry (p, q) of its block: (Σₖ a(p,k)·w(k,q)) · n(p,0) + b(0,q). -/
theorem pay_apply (a : Vec Ideal S5000x64 .f32) (w : Vec Ideal S64x64 .f32) (n : Vec Ideal S5000x1 .f32) (b : Vec Ideal S1x64 .f32)
    (p : Fin 5000) (q : Fin 64) :
    k1_pay1 (F := Ideal) a w n b (ix2 p q) = (∑ k : Fin 64, a (ix2 p k) * w (ix2 k q)) * n (ix2 p 0) + b (ix2 0 q) := by
  unfold k1_pay1
  simp only [shapeCast_self]
  rw [addf_apply, mulf_apply, blockProd_apply,
    broadcastTo_apply n broadcasts_S5000x1_S5000x64 (ix2 p q) (ix2 p 0) (fun d => by fin_cases d <;> rfl),
    broadcastTo_apply b broadcasts_S1x64_S5000x64 (ix2 p q) (ix2 0 q) (fun d => by fin_cases d <;> rfl)]
  rfl

/-! ## Where each block sits in its array -/

/-- The offsets of a load or store of a whole block, spelt as the constant zero. -/
theorem zeroOffsets : (![0, 0] : Fin 2 → Nat) = fun _ => 0 := funext fun a => by fin_cases a <;> rfl

/-- The index maps, decided over the ten grid points: at point `t` the three row-tiled windows (the aggregated features, the
    norm column, the output) are at block `t` of their rows and block 0 of their columns; the weight matrix and the bias row,
    each one block, are at block (0, 0). -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The aggregated-features block at point `t`, entry (x₀, x₁), is the array's entry (5000·t + x₀, x₁). -/
theorem aggBlock_apply (c : Dev nD) (t : Fin cfg1.N) (x : S5000x64.Idx) (i : S50000x64.Idx)
    (h0 : (i 0).val = t.val * 5000 + (x 0).val) (h1 : (i 1).val = (x 1).val) :
    (iblk1 (F := Ideal) V c 0 t : Vec Ideal S5000x64 .f32) x = (V c main_v18 : FVec Ideal S50000x64 .f32) i := by
  obtain ⟨e0, e1, -⟩ := blockIndex t
  unfold iblk1
  rw [View.read_apply]
  show V c main_v18 _ = V c main_v18 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

/-- The norm column's block at point `t`, entry (x₀, 0), is the column's entry (5000·t + x₀, 0). -/
theorem normBlock_apply (c : Dev nD) (t : Fin cfg1.N) (x : S5000x1.Idx) (i : S50000x1.Idx)
    (h0 : (i 0).val = t.val * 5000 + (x 0).val) :
    (iblk1 (F := Ideal) V c 3 t : Vec Ideal S5000x1 .f32) x = (V c main_v7 : FVec Ideal S50000x1 .f32) i := by
  obtain ⟨-, -, -, -, -, -, e0, e1, -⟩ := blockIndex t
  have hx : (x 1).val < 1 := idx2_lt1 x
  have hi : (i 1).val < 1 := idx2_lt1 i
  unfold iblk1
  rw [View.read_apply]
  show V c main_v7 _ = V c main_v7 _
  congr 1
  funext a
  apply Fin.ext
  match a with
  | ⟨0, _⟩ => show win1_3.index t (0 : Fin 2) * 5000 + 1 * (x 0).val = (i 0).val; rw [e0, h0]; omega
  | ⟨1, _⟩ => show win1_3.index t (1 : Fin 2) * 1 + 1 * (x 1).val = (i 1).val; rw [e1]; omega

/-- The weight matrix's block at every point is the whole matrix. -/
theorem weightBlock_eq (c : Dev nD) (t : Fin cfg1.N) :
    (iblk1 (F := Ideal) V c 1 t : Vec Ideal S64x64 .f32) = (V c main_arg1 : FVec Ideal S64x64 .f32) := by
  obtain ⟨-, -, e0, e1, -⟩ := blockIndex t
  funext x
  unfold iblk1
  rw [View.read_apply]
  show V c main_arg1 _ = V c main_arg1 _
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- The bias row's block at every point is the whole row. -/
theorem biasBlock_eq (c : Dev nD) (t : Fin cfg1.N) :
    (iblk1 (F := Ideal) V c 2 t : Vec Ideal S1x64 .f32) = (V c main_v19 : FVec Ideal S1x64 .f32) := by
  obtain ⟨-, -, -, -, e0, e1, -⟩ := blockIndex t
  funext x
  unfold iblk1
  rw [View.read_apply]
  show V c main_v19 _ = V c main_v19 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-! ## One block of rows computes its rows of the whole map -/

/-- Row-locality. Let `a` be rows 5000·r … 5000·r + 4999 of `A`, `n` the same rows of the column `N`, `w = W` and `b = B`. Then the
    body's stored value at entry `y` of the block is `rowAffine A W B N` at the entry `i` of the array that `y` sits at: the sum
    over k reads row `i 0` of `A` only, the scaling reads entry `i 0` of `N` only, and the bias reads no row at all. -/
theorem pay_eq_rowAffine (A : FVec Ideal S50000x64 .f32) (W : FVec Ideal S64x64 .f32) (B : FVec Ideal S1x64 .f32)
    (N : FVec Ideal S50000x1 .f32) (a : Vec Ideal S5000x64 .f32) (w : Vec Ideal S64x64 .f32) (b : Vec Ideal S1x64 .f32)
    (n : Vec Ideal S5000x1 .f32) (r : Nat)
    (ha : ∀ (x : S5000x64.Idx) (i : S50000x64.Idx), (i 0).val = r * 5000 + (x 0).val → (i 1).val = (x 1).val → a x = A i)
    (hw : w = W) (hb : b = B)
    (hn : ∀ (x : S5000x1.Idx) (i : S50000x1.Idx), (i 0).val = r * 5000 + (x 0).val → n x = N i)
    (y : S5000x64.Idx) (i : S50000x64.Idx) (h0 : (i 0).val = r * 5000 + (y 0).val) (h1 : (i 1).val = (y 1).val) :
    k1_pay1 (F := Ideal) a w n b y = rowAffine A W B N i := by
  obtain ⟨p, q, rfl⟩ : ∃ (p : Fin 5000) (q : Fin 64), y = ix2 p q := ⟨y 0, y 1, eq_ix2 y⟩
  have hq : i 1 = q := Fin.ext h1
  rw [pay_apply, rowAffine_apply, hw, hb, hq, hn (ix2 p 0) (ix2 (i 0) 0) h0]
  refine congrArg (· * N (ix2 (i 0) 0) + B (ix2 0 q)) (Finset.sum_congr rfl fun k _ => ?_)
  rw [ha (ix2 p k) (ix2 (i 0) k) h0 rfl]

/-! ## What a grid point writes back -/

/-- Point `t` writes back block `t` of `rowAffine` of the four arrays as the region finds them. -/
theorem flushed_eq (c : Dev nD) (t : Fin cfg1.N) :
    (dat1 (F := Ideal) V c).flushed 4 t = ((cfg1.win 4).blk t).view.read (Elt Ideal)
      (rowAffine (V c main_v18) (V c main_arg1) (V c main_v19) (V c main_v7)) := by
  show (cfg1.win 4).cut (grid1.coords t) ((dat1 V c).after 4 t) = _
  rw [after1_4]
  unfold out1_4
  rw [View.canon_unit_zero zeroOffsets]
  simp only [View.ld_unit_zero (S := S5000x64) zeroOffsets, View.ld_unit_zero (S := S64x64) zeroOffsets,
    View.ld_unit_zero (S := S5000x1) zeroOffsets, View.ld_unit_zero (S := S1x64) zeroOffsets]
  obtain ⟨-, -, -, -, -, -, -, -, e0, e1⟩ := blockIndex t
  funext j
  rw [View.read_apply]
  refine pay_eq_rowAffine (V c main_v18) (V c main_arg1) (V c main_v19) (V c main_v7) _ _ _ _ t.val
    (fun x i h0 h1 => aggBlock_apply V c t x i h0 h1) (weightBlock_eq V c t) (biasBlock_eq V c t)
    (fun x i h0 => normBlock_apply V c t x i h0) _ _ ?_ ?_
  · show win1_4.index t (0 : Fin 2) * 5000 + 1 * (j 0).val = t.val * 5000 + (j 0).val
    rw [e0]; omega
  · show win1_4.index t (1 : Fin 2) * 64 + 1 * (j 1).val = (j 1).val
    rw [e1]; omega

/-! ## The ten blocks tile the array -/

/-- An entry of the output array is in point `t`'s block iff on each axis its coordinate is in the block's range. -/
theorem mem_blk (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v20).slice (win1_4.rect t)).set ↔ _
  rw [View.set_slice_whole, Rect.mem_set_unit]
  exact Iff.rfl

/-- Every entry is in the block of a point that writes back: row r is in block r / 5000, and the block spans all 64 columns. -/
theorem covered (i : S50000x64.Idx) :
    ∃ t : Fin cfg1.N, (cfg1.win 4).flush t = true ∧ i ∈ ((cfg1.win 4).blk t).view.set := by
  have hi0 : (i 0).val < 50000 := idx2_lt0 i
  have hi1 : (i 1).val < 64 := idx2_lt1 i
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, e0, e1⟩ := blockIndex t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

end Affine

/-! ## The region's output -/

/-- After the ten blocks are written the output array is `rowAffine` of the aggregated features, the weight matrix, the bias row and
    the norm column as the region found them: entry (p, q) is (Σₖ agg(p,k)·W(k,q)) · norm(p,0) + bias(0,q). Each grid point writes its
    own 5000 rows of that map (`Affine.flushed_eq`), and the ten blocks of rows cover the array (`Affine.covered`). -/
theorem final1 (c : Dev nD) :
    (dat1 (F := Ideal) V c).arrAt 4 cfg1.N = rowAffine (V c main_v18) (V c main_arg1) (V c main_v19) (V c main_v7) :=
  (dat1 (F := Ideal) V c).arrAt_eq_of_cover 4 (rowAffine (V c main_v18) (V c main_arg1) (V c main_v19) (V c main_v7))
    (fun t _ => Affine.flushed_eq V c t) Affine.covered

end Cert.KernelIdeal.RegionValue
end
-- ==== Proof.SpecEq.lean ====
/-
  The kernel's value and the reference's are one function of the arguments, at the extended reals.

  Kernel: out(p, q) = (Σₖ agg(p, k) · W(k, q)) · norm(p) + bias(q), where agg is the gather/segment-sum of h(p, q) = feat(p, q) · norm(p).
  Reference: the same expression, written with the norm vector broadcast along the rows and the bias broadcast along the columns.
  The degree norm and the gather/segment-sum are the same opaque terms on both sides, so nothing about them is used; the sum over k,
  the product with the row's norm and the added bias entry are matched index by index. No distributivity or cancellation is needed
  (the two sides group the operations identically), so the statement holds for arbitrary extended-real entries.
-/
import proofs.«137508_j1443109011527_1_alg».proof.Proof.HostRead
import proofs.«137508_j1443109011527_1_alg».proof.Proof.Rows
import proofs.«137508_j1443109011527_1_alg».proof.Proof.Gen.ReferenceIdeal.Read
import Idealize.ShloMosaic.Lib.Pipeline.Value
import Idealize.ShloMosaic.Lib.ValueIdx
import Idealize.ShloMosaic.Lib.ValueLayout

noncomputable section

namespace Cert.SpecEq

open Idealize.ShloMosaic Idealize.ShloMosaic.ValueIdx
open Cert.KernelIdeal.HostRead Cert.KernelIdeal.Rows

variable (x0 : (⟨Cert.KernelIdeal.S50000x64, .f32⟩ : BufTy).Contents (Elt Ideal))
  (x1 : (⟨Cert.KernelIdeal.S64x64, .f32⟩ : BufTy).Contents (Elt Ideal))
  (x2 : (⟨Cert.KernelIdeal.S64, .f32⟩ : BufTy).Contents (Elt Ideal))
  (x3 x4 : (⟨Cert.KernelIdeal.S800000, .i32⟩ : BufTy).Contents (Elt Ideal))

/-- The degree norm is the reference's stage of the same name: the same operations on the same operand. -/
theorem degNorm_eq : degNorm (F := Ideal) x4 = Cert.ReferenceIdeal.Read.val_main_v6 (F := Ideal) x4 := rfl

/-- The norm column at row `p` is the norm vector's entry `p` (a vector viewed as a one-column matrix keeps its row-major order). -/
theorem normCol_apply (p : Fin 50000) :
    normCol (F := Ideal) x4 (ix2 p (0 : Fin 1)) = Cert.ReferenceIdeal.Read.val_main_v6 (F := Ideal) x4 (ix1 p) := by
  unfold normCol
  refine (shapeCast_apply _ _ (ix2 p (0 : Fin 1)) (ix1 p) ?_).trans (congrFun (degNorm_eq x4) _)
  rw [Shape.rowMajor_val_one, Shape.rowMajor_val_two]
  show p.val = p.val * 1 + 0
  omega

/-- The bias row at column `q` is the bias vector's entry `q`. -/
theorem biasRow_apply (q : Fin 64) : biasRow (F := Ideal) x2 (ix2 (0 : Fin 1) q) = x2 (ix1 q) := by
  unfold biasRow
  exact shapeCast_a_1a_apply x2 _ 0 q

/-- Scaling each row of the features by the norm column is the reference's product with the norm broadcast along the rows. -/
theorem scaled_eq : rowScale x0 (normCol (F := Ideal) x4) = Cert.ReferenceIdeal.Read.val_main_v9 (F := Ideal) x0 x4 := by
  funext i
  have e : Cert.ReferenceIdeal.Read.idx_main_v7 (Cert.ReferenceIdeal.Read.idx_main_v8 i) = ix1 (i 0) :=
    funext fun a => Fin.ext (by match a with | ⟨0, _⟩ => rfl)
  have hn := normCol_apply x4 (i 0)
  rw [rowScale_apply, Cert.ReferenceIdeal.Read.val_main_v9_apply, Cert.ReferenceIdeal.Read.val_main_v8_apply, Cert.ReferenceIdeal.Read.val_main_v7_apply, hn, e]
  rfl

/-- The aggregate of the reference's scaled features is the reference's aggregate: the same gather and segment sum. -/
theorem agg_eq : aggOf (F := Ideal) (Cert.ReferenceIdeal.Read.val_main_v9 (F := Ideal) x0 x4) x3 x4 = Cert.ReferenceIdeal.Read.val_main_v19 (F := Ideal) x0 x3 x4 := rfl

/-- The kernel's composed value is the reference's last stage. -/
theorem value_eq :
    rowAffine (aggOf (F := Ideal) (rowScale x0 (normCol (F := Ideal) x4)) x3 x4) x1 (biasRow (F := Ideal) x2) (normCol (F := Ideal) x4)
      = Cert.ReferenceIdeal.Read.val_main_v26 (F := Ideal) x0 x1 x2 x3 x4 := by
  rw [scaled_eq, agg_eq]
  funext i
  have el : ∀ k : Fin 64, Cert.ReferenceIdeal.Read.lidx_main_v20 i k = ix2 (i 0) k :=
    fun k => funext fun a => Fin.ext (by match a with | ⟨0, _⟩ => rfl | ⟨1, _⟩ => rfl)
  have er : ∀ k : Fin 64, Cert.ReferenceIdeal.Read.ridx_main_v20 i k = ix2 k (i 1) :=
    fun k => funext fun a => Fin.ext (by match a with | ⟨0, _⟩ => rfl | ⟨1, _⟩ => rfl)
  have en : Cert.ReferenceIdeal.Read.idx_main_v21 (Cert.ReferenceIdeal.Read.idx_main_v22 i) = ix1 (i 0) :=
    funext fun a => Fin.ext (by match a with | ⟨0, _⟩ => rfl)
  have eb : Cert.ReferenceIdeal.Read.idx_main_v24 (Cert.ReferenceIdeal.Read.idx_main_v25 i) = ix1 (i 1) :=
    funext fun a => Fin.ext (by match a with | ⟨0, _⟩ => rfl)
  have hn := normCol_apply x4 (i 0)
  have hb := biasRow_apply x2 (i 1)
  rw [rowAffine_apply, hn, hb, Cert.ReferenceIdeal.Read.val_main_v26_apply, Cert.ReferenceIdeal.Read.val_main_v23_apply, Cert.ReferenceIdeal.Read.val_main_v20_apply,
    Cert.ReferenceIdeal.Read.val_main_v22_apply, Cert.ReferenceIdeal.Read.val_main_v21_apply, Cert.ReferenceIdeal.Read.val_main_v25_apply, Cert.ReferenceIdeal.Read.val_main_v24_apply, en, eb]
  simp only [el, er]
  rfl

end Cert.SpecEq

end
-- ==== Proof.KValue.lean ====
/-
  The idealized kernel's run with its result named: the result buffer ends holding the reference's last stage of the launch contents
  of the five arguments.

  The result buffer at the end is what region 1's write-backs leave: the row-affine map of the buffers region 1 is entered with.
  Those are the aggregate of region 0's output array, the weights, the bias row and the norm column; region 0's output array is the
  row-scaled features. Substituting, the result is the kernel's composed value of the arguments, which is the reference's.
-/
import proofs.«137508_j1443109011527_1_alg».proof.Proof.KRun
import proofs.«137508_j1443109011527_1_alg».proof.Proof.Boundary
import proofs.«137508_j1443109011527_1_alg».proof.Proof.Region0
import proofs.«137508_j1443109011527_1_alg».proof.Proof.Region1
import proofs.«137508_j1443109011527_1_alg».proof.Proof.SpecEq

noncomputable section

namespace Cert.KernelIdeal.KValue

open Idealize.ShloMosaic Idealize.ShloMosaic.TcCoe Idealize.SL.Sem
open Cert.KernelIdeal Cert.KernelIdeal.Gen Cert.KernelIdeal.Boundary Cert.KernelIdeal.RegionValue

variable (m : (ℓ : Loc nD τ sig) → Buf (Elt Ideal) ℓ) (ρ : Dev nD → PrngReg)

/-- The reference's last stage of the kernel's launch contents. -/
abbrev result (c : Dev nD) : Buf (Elt Ideal) ((c.tc : Thread nD τ).loc main_v20) :=
  Cert.ReferenceIdeal.Read.val_main_v26 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The last boundary's contents of the result buffer. -/
theorem last_value (c : Dev nD) : W6 m ρ c (Proc.devRef .tc main_v20) = result m c := by
  rw [last_out m ρ c, final1 (V5 m ρ) c, entry1_agg m ρ c, entry1_weight m ρ c, entry1_bias m ρ c, entry1_norm m ρ c,
    final0 (V3 m ρ) c, entry0_feat m ρ c, entry0_norm m ρ c]
  exact Cert.SpecEq.value_eq _ _ _ _ _

/-- Every weakly fair execution terminates, nothing faulting, with the result buffer at `result` and the arguments as launched. -/
theorem run : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (last_value m ρ c), (h c).2⟩)
    (Cert.KernelIdeal.ValueRun.run_last (F := Ideal) m ρ)

end Cert.KernelIdeal.KValue

end
-- ==== Proof.lean ====
/-
  A graph-convolution layer against its plain reference, as functions of (feat, weight, bias, src, dst):

    norm(p)   = max(1, in-degree(p)) ^ (−1/2), the in-degree a segment sum of ones over dst;
    h(p, q)   = feat(p, q) · norm(p);
    agg       = the rows h[src] summed into the rows dst;
    out(p, q) = (Σₖ agg(p, k) · weight(k, q)) · norm(p) + bias(q).

  The kernel computes h and out in two tiled regions (5000 rows per grid point, the matrix product's operands passed through a
  narrower float format, which is the identity on the extended reals) and norm and agg on the host between them; the reference computes
  everything on the host. The degree norm and the gather/segment-sum are the same operations on both sides and are never opened; what is
  proved is that the tiled regions compute the row-scaled features and the row-affine image of the aggregate as whole arrays (each
  grid point writes its block of one whole-array function and the ten blocks tile the rows), and that the composed value is the
  reference's composed term, index by index. The two sides group every sum and product identically, so the equality holds for all
  extended-real entries and the finiteness of the inputs is not used.

  The three frames are the generated ones (the reference's its generated run with the result dropped); the idealization rewrote no
  operation.
-/
import proofs.«137508_j1443109011527_1_alg».proof.Defs
import proofs.«137508_j1443109011527_1_alg».proof.Proof.Gen.Kernel
import proofs.«137508_j1443109011527_1_alg».proof.Proof.Gen.Kernel.Skeleton
import proofs.«137508_j1443109011527_1_alg».proof.Proof.Gen.Kernel.Launch
import proofs.«137508_j1443109011527_1_alg».proof.Proof.Gen.Kernel.Points
import proofs.«137508_j1443109011527_1_alg».proof.Proof.Gen.Kernel.Frame
import proofs.«137508_j1443109011527_1_alg».proof.Proof.Gen.KernelIdeal
import proofs.«137508_j1443109011527_1_alg».proof.Proof.Gen.KernelIdeal.Skeleton
import proofs.«137508_j1443109011527_1_alg».proof.Proof.Gen.KernelIdeal.Launch
import proofs.«137508_j1443109011527_1_alg».proof.Proof.Gen.KernelIdeal.Points
import proofs.«137508_j1443109011527_1_alg».proof.Proof.Gen.KernelIdeal.Frame
import proofs.«137508_j1443109011527_1_alg».proof.Proof.Gen.ReferenceIdeal
import proofs.«137508_j1443109011527_1_alg».proof.Proof.Gen.ReferenceIdeal.Run
import proofs.«137508_j1443109011527_1_alg».proof.Proof.Gen.ReferenceIdeal.Read
import proofs.«137508_j1443109011527_1_alg».proof.Proof.Gen.Pre_finite_inputs
import proofs.«137508_j1443109011527_1_alg».proof.Proof.KValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at the reference's last stage of those arguments:
    the kernel by its value run, the reference by its generated run, whose composed term is that stage. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v26_eq, e0, e1, e2, e3, e4]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
